-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S4x2 : Shape := ⟨2, ![4, 2]⟩
abbrev S4 : Shape := ⟨1, ![4]⟩
abbrev S10x4x4 : Shape := ⟨3, ![10, 4, 4]⟩
abbrev S10x4 : Shape := ⟨2, ![10, 4]⟩
abbrev S1x4 : Shape := ⟨2, ![1, 4]⟩
abbrev S1 : Shape := ⟨1, ![1]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S4x2 : S_.BroadcastsInDim S4x2 (![] : Fin 0 → Fin S4x2.rank)
  reducesTo_S4x2_S_d0_1 : S4x2.ReducesTo [0, 1] S_
  bcast_S_S4 : S_.BroadcastsInDim S4 (![] : Fin 0 → Fin S4.rank)
  reducesTo_S4_S_d0 : S4.ReducesTo [0] S_
  bcast_S_S10x4x4 : S_.BroadcastsInDim S10x4x4 (![] : Fin 0 → Fin S10x4x4.rank)
  reducesTo_S10x4x4_S_d0_1_2 : S10x4x4.ReducesTo [0, 1, 2] S_
  bcast_S_S10x4 : S_.BroadcastsInDim S10x4 (![] : Fin 0 → Fin S10x4.rank)
  reducesTo_S10x4_S_d0_1 : S10x4.ReducesTo [0, 1] S_
  bcast_S_S1x4 : S_.BroadcastsInDim S1x4 (![] : Fin 0 → Fin S1x4.rank)
  reducesTo_S1x4_S_d0_1 : S1x4.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S10x4 .f32) (main_arg5 : FVec F S1x4 .f32) (main_arg6 : FVec F S1 .f32) (main_v13 : IVec S_ 1) (main_v16 : IVec S10x4x4 1) : IVec S_ 1 :=
  let main_c_5 : IVec S_ 1 := constantI S_ 1 1#1
  let main_v17 : IVec S_ 1 := (fun x v => Host.reduce IntOp.andi x v reducesTo_S10x4x4_S_d0_1_2 h_S_) main_v16 main_c_5
  let main_v18 : IVec S_ 1 := andi main_v13 main_v17
  let main_v19 : FVec F S10x4 .f32 := Host.absf main_arg4
  let main_cst_6 : FVec F S_ .f32 := constant S_ .f32 0x7F800000#32
  let main_v20 : FVec F S10x4 .f32 := broadcastInDim S10x4 ![] bcast_S_S10x4 main_cst_6
  let main_v21 : IVec S10x4 1 := cmpf .olt main_v19 main_v20
  let main_c_7 : IVec S_ 1 := constantI S_ 1 1#1
  let main_v22 : IVec S_ 1 := (fun x v => Host.reduce IntOp.andi x v reducesTo_S10x4_S_d0_1 h_S_) main_v21 main_c_7
  let main_v23 : IVec S_ 1 := andi main_v18 main_v22
  let main_v24 : FVec F S1x4 .f32 := Host.absf main_arg5
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8388608x2 .f32) (main_arg1 : FVec F S4x2 .f32) (main_arg2 : FVec F S4 .f32) (main_arg3 : FVec F S10x4x4 .f32) (main_arg4 : FVec F S10x4 .f32) (main_arg5 : FVec F S1x4 .f32) (main_arg6 : FVec F S1 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S4x2 .f32 := Host.absf main_arg1
  let main_cst_0 : FVec F S_ .f32 := constant S_ .f32 0x7F800000#32
  let main_v5 : FVec F S4x2 .f32 := broadcastInDim S4x2 ![] bcast_S_S4x2 main_cst_0
  let main_v6 : IVec S4x2 1 := cmpf .olt main_v4 main_v5
  let main_c_1 : IVec S_ 1 := constantI S_ 1 1#1
  let main_v7 : IVec S_ 1 := (fun x v => Host.reduce IntOp.andi x v reducesTo_S4x2_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S10x4x4 .f32 := Host.absf main_arg3
  let main_cst_4 : FVec F S_ .f32 := constant S_ .f32 0x7F800000#32
  let main_v15 : FVec F S10x4x4 .f32 := broadcastInDim S10x4x4 ![] bcast_S_S10x4x4 main_cst_4
  let main_v16 : IVec S10x4x4 1 := cmpf .olt main_v14 main_v15
  fn_part1 (F := F) main_arg4 main_arg5 main_arg6 main_v13 main_v16
-- ==== Kernel.lean ====
abbrev S8388608x2 : Shape := ⟨2, ![8388608, 2]⟩
abbrev S4x2 : Shape := ⟨2, ![4, 2]⟩
abbrev S4 : Shape := ⟨1, ![4]⟩
abbrev S10x4x4 : Shape := ⟨3, ![10, 4, 4]⟩
abbrev S10x4 : Shape := ⟨2, ![10, 4]⟩
abbrev S1x4 : Shape := ⟨2, ![1, 4]⟩
abbrev S1 : Shape := ⟨1, ![1]⟩
abbrev S8388608x1 : Shape := ⟨2, ![8388608, 1]⟩
abbrev S8192x2 : Shape := ⟨2, ![8192, 2]⟩
abbrev S8192x1 : Shape := ⟨2, ![8192, 1]⟩
abbrev S8192x4 : Shape := ⟨2, ![8192, 4]⟩
abbrev S1x4x4 : Shape := ⟨3, ![1, 4, 4]⟩
abbrev S4x4 : Shape := ⟨2, ![4, 4]⟩
abbrev S8192 : Shape := ⟨1, ![8192]⟩
abbrev S1x1 : Shape := ⟨2, ![1, 1]⟩

abbrev nBuf : Space → Nat
  | .hbm => 8
  | .vmem => 10
  | .smem => 0
  | _ => 0

abbrev bufTy : (tb : Table) → Fin (tcTables nBuf tb) → BufTy
  | .hbm, ⟨0, _⟩ => ⟨S8388608x2, .f32⟩
  | .hbm, ⟨1, _⟩ => ⟨S4x2, .f32⟩
  | .hbm, ⟨2, _⟩ => ⟨S4, .f32⟩
  | .hbm, ⟨3, _⟩ => ⟨S10x4x4, .f32⟩
  | .hbm, ⟨4, _⟩ => ⟨S10x4, .f32⟩
  | .hbm, ⟨5, _⟩ => ⟨S1x4, .f32⟩
  | .hbm, ⟨6, _⟩ => ⟨S1, .f32⟩
  | .hbm, ⟨7, _⟩ => ⟨S8388608x1, .f32⟩
  | .local _ .vmem, ⟨0, _⟩ => ⟨S8192x2, .f32⟩
  | .local _ .vmem, ⟨1, _⟩ => ⟨S8192x2, .f32⟩
  | .local _ .vmem, ⟨2, _⟩ => ⟨S4x2, .f32⟩
  | .local _ .vmem, ⟨3, _⟩ => ⟨S4, .f32⟩
  | .local _ .vmem, ⟨4, _⟩ => ⟨S10x4x4, .f32⟩
  | .local _ .vmem, ⟨5, _⟩ => ⟨S10x4, .f32⟩
  | .local _ .vmem, ⟨6, _⟩ => ⟨S1x4, .f32⟩
  | .local _ .vmem, ⟨7, _⟩ => ⟨S1, .f32⟩
  | .local _ .vmem, ⟨8, _⟩ => ⟨S8192x1, .f32⟩
  | .local _ .vmem, ⟨9, _⟩ => ⟨S8192x1, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192x2_S8192x2_0_0 : ∀ a, (![0, 0] : Fin 2 → Nat) a + S8192x2.size a ≤ S8192x2.size a
  h_S8192x2 : 0 < S8192x2.numel
  inb_S4x2_S4x2_0_0 : ∀ a, (![0, 0] : Fin 2 → Nat) a + S4x2.size a ≤ S4x2.size a
  h_S4x2 : 0 < S4x2.numel
  inb_S4_S4_0 : ∀ a, (![0] : Fin 1 → Nat) a + S4.size a ≤ S4.size a
  h_S4 : 0 < S4.numel
  shapeCasts_S4_S1x4 : S4.ShapeCasts S1x4
  broadcasts_S1x4_S8192x4 : S1x4.Broadcasts S8192x4
  inb_S10x4x4_S1x4x4_0_0_0 : ∀ a, (![0, 0, 0] : Fin 3 → Nat) a + S1x4x4.size a ≤ S10x4x4.size a
  h_S1x4x4 : 0 < S1x4x4.numel
  shapeCasts_S1x4x4_S4x4 : S1x4x4.ShapeCasts S4x4
  inb_S10x4_S1x4_0_0 : ∀ a, (![0, 0] : Fin 2 → Nat) a + S1x4.size a ≤ S10x4.size a
  h_S1x4 : 0 < S1x4.numel
  shapeCasts_S1x4_S4 : S1x4.ShapeCasts S4
  inb_S10x4x4_S1x4x4_1_0_0 : ∀ a, (![1, 0, 0] : Fin 3 → Nat) a + S1x4x4.size a ≤ S10x4x4.size a
  inb_S10x4_S1x4_1_0 : ∀ a, (![1, 0] : Fin 2 → Nat) a + S1x4.size a ≤ S10x4.size a
  inb_S10x4x4_S1x4x4_2_0_0 : ∀ a, (![2, 0, 0] : Fin 3 → Nat) a + S1x4x4.size a ≤ S10x4x4.size a
  inb_S10x4_S1x4_2_0 : ∀ a, (![2, 0] : Fin 2 → Nat) a + S1x4.size a ≤ S10x4.size a
  inb_S10x4x4_S1x4x4_3_0_0 : ∀ a, (![3, 0, 0] : Fin 3 → Nat) a + S1x4x4.size a ≤ S10x4x4.size a
  inb_S10x4_S1x4_3_0 : ∀ a, (![3, 0] : Fin 2 → Nat) a + S1x4.size a ≤ S10x4.size a
  inb_S10x4x4_S1x4x4_4_0_0 : ∀ a, (![4, 0, 0] : Fin 3 → Nat) a + S1x4x4.size a ≤ S10x4x4.size a
  inb_S10x4_S1x4_4_0 : ∀ a, (![4, 0] : Fin 2 → Nat) a + S1x4.size a ≤ S10x4.size a
  inb_S10x4x4_S1x4x4_5_0_0 : ∀ a, (![5, 0, 0] : Fin 3 → Nat) a + S1x4x4.size a ≤ S10x4x4.size a
  inb_S10x4_S1x4_5_0 : ∀ a, (![5, 0] : Fin 2 → Nat) a + S1x4.size a ≤ S10x4.size a
  inb_S10x4x4_S1x4x4_6_0_0 : ∀ a, (![6, 0, 0] : Fin 3 → Nat) a + S1x4x4.size a ≤ S10x4x4.size a
  inb_S10x4_S1x4_6_0 : ∀ a, (![6, 0] : Fin 2 → Nat) a + S1x4.size a ≤ S10x4.size a
  inb_S10x4x4_S1x4x4_7_0_0 : ∀ a, (![7, 0, 0] : Fin 3 → Nat) a + S1x4x4.size a ≤ S10x4x4.size a
  inb_S10x4_S1x4_7_0 : ∀ a, (![7, 0] : Fin 2 → Nat) a + S1x4.size a ≤ S10x4.size a
  inb_S10x4x4_S1x4x4_8_0_0 : ∀ a, (![8, 0, 0] : Fin 3 → Nat) a + S1x4x4.size a ≤ S10x4x4.size a
  inb_S10x4_S1x4_8_0 : ∀ a, (![8, 0] : Fin 2 → Nat) a + S1x4.size a ≤ S10x4.size a
  inb_S10x4x4_S1x4x4_9_0_0 : ∀ a, (![9, 0, 0] : Fin 3 → Nat) a + S1x4x4.size a ≤ S10x4x4.size a
  inb_S10x4_S1x4_9_0 : ∀ a, (![9, 0] : Fin 2 → Nat) a + S1x4.size a ≤ S10x4.size a
  inb_S1x4_S1x4_0_0 : ∀ a, (![0, 0] : Fin 2 → Nat) a + S1x4.size a ≤ S1x4.size a
  reduces_S8192x4_S8192 : S8192x4.Reduces [1] S8192
  shapeCasts_S8192_S8192x1 : S8192.ShapeCasts S8192x1
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x2_S4x2_S8192x4_1_1_0_0_n_n_wf : DotDims.WF S8192x2 S4x2 S8192x4 [1] [1] [0] [0] [] []
  dot_S8192x4_S4x4_S8192x4_1_1_0_0_n_n_wf : DotDims.WF S8192x4 S4x4 S8192x4 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S8388608x2.size a
  hwx0_0 : ∀ i : grid0.Coords, EltTy.bits .f32 = 32 ∨ (Rect.block (s := S8388608x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2.size a ≤ S4x2.size a
  hwx0_1 : ∀ i : grid0.Coords, EltTy.bits .f32 = 32 ∨ (Rect.block (s := S4x2) S4x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x4x4.size a ≤ S10x4x4.size a
  hwx0_3 : ∀ i : grid0.Coords, EltTy.bits .f32 = 32 ∨ (Rect.block (s := S10x4x4) S10x4x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x4.size a ≤ S10x4.size a
  hwx0_4 : ∀ i : grid0.Coords, EltTy.bits .f32 = 32 ∨ (Rect.block (s := S10x4) S10x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4.size a ≤ S1x4.size a
  hwx0_5 : ∀ i : grid0.Coords, EltTy.bits .f32 = 32 ∨ (Rect.block (s := S1x4) S1x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S8388608x1.size a
  hwx0_7 : ∀ i : grid0.Coords, EltTy.bits .f32 = 32 ∨ (Rect.block (s := S8388608x1) S8192x1.size (cc0_transform_7 i) (hinb0_7 i)).WholeWords (EltTy.packing .f32)

variable [Facts₀]

def dot_S8192x2_S4x2_S8192x4_1_1_0_0_n_n : DotDims S8192x2 S4x2 S8192x4 where
  lhsContracting := [1]
  rhsContracting := [1]
  lhsNonContracting := [0]
  rhsNonContracting := [0]
  lhsBatch := []
  rhsBatch := []
  wf := dot_S8192x2_S4x2_S8192x4_1_1_0_0_n_n_wf
def dot_S8192x4_S4x4_S8192x4_1_1_0_0_n_n : DotDims S8192x4 S4x4 S8192x4 where
  lhsContracting := [1]
  rhsContracting := [1]
  lhsNonContracting := [0]
  rhsNonContracting := [0]
  lhsBatch := []
  rhsBatch := []
  wf := dot_S8192x4_S4x4_S8192x4_1_1_0_0_n_n_wf

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x4x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8192x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S4x2 : Shape := ⟨2, ![4, 2]⟩
abbrev S4 : Shape := ⟨1, ![4]⟩
abbrev S10x4x4 : Shape := ⟨3, ![10, 4, 4]⟩
abbrev S10x4 : Shape := ⟨2, ![10, 4]⟩
abbrev S1x4 : Shape := ⟨2, ![1, 4]⟩
abbrev S1 : Shape := ⟨1, ![1]⟩
abbrev S2x4 : Shape := ⟨2, ![2, 4]⟩
abbrev S8388608x4 : Shape := ⟨2, ![8388608, 4]⟩
abbrev S_ : Shape := ⟨0, ![]⟩
abbrev S1x4x4 : Shape := ⟨3, ![1, 4, 4]⟩
abbrev S4x4 : Shape := ⟨2, ![4, 4]⟩
abbrev S4x1 : Shape := ⟨2, ![4, 1]⟩
abbrev S8388608x1 : Shape := ⟨2, ![8388608, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S8388608x2, .f32⟩
  | 1 => ⟨S4x2, .f32⟩
  | 2 => ⟨S4, .f32⟩
  | 3 => ⟨S10x4x4, .f32⟩
  | 4 => ⟨S10x4, .f32⟩
  | 5 => ⟨S1x4, .f32⟩
  | 6 => ⟨S1, .f32⟩
  | 7 => ⟨S2x4, .f32⟩
  | 8 => ⟨S8388608x4, .f32⟩
  | 9 => ⟨S1x4, .f32⟩
  | 10 => ⟨S8388608x4, .f32⟩
  | 11 => ⟨S8388608x4, .f32⟩
  | 12 => ⟨S_, .f32⟩
  | 13 => ⟨S8388608x4, .f32⟩
  | 14 => ⟨S8388608x4, .f32⟩
  | 15 => ⟨S1x4x4, .f32⟩
  | 16 => ⟨S4x4, .f32⟩
  | 17 => ⟨S4x4, .f32⟩
  | 18 => ⟨S8388608x4, .f32⟩
  | 19 => ⟨S1x4, .f32⟩
  | 20 => ⟨S4, .f32⟩
  | 21 => ⟨S1x4, .f32⟩
  | 22 => ⟨S8388608x4, .f32⟩
  | 23 => ⟨S8388608x4, .f32⟩
  | 24 => ⟨S_, .f32⟩
  | 25 => ⟨S8388608x4, .f32⟩
  | 26 => ⟨S8388608x4, .f32⟩
  | 27 => ⟨S1x4x4, .f32⟩
  | 28 => ⟨S4x4, .f32⟩
  | 29 => ⟨S4x4, .f32⟩
  | 30 => ⟨S8388608x4, .f32⟩
  | 31 => ⟨S1x4, .f32⟩
  | 32 => ⟨S4, .f32⟩
  | 33 => ⟨S1x4, .f32⟩
  | 34 => ⟨S8388608x4, .f32⟩
  | 35 => ⟨S8388608x4, .f32⟩
  | 36 => ⟨S_, .f32⟩
  | 37 => ⟨S8388608x4, .f32⟩
  | 38 => ⟨S8388608x4, .f32⟩
  | 39 => ⟨S1x4x4, .f32⟩
  | 40 => ⟨S4x4, .f32⟩
  | 41 => ⟨S4x4, .f32⟩
  | 42 => ⟨S8388608x4, .f32⟩
  | 43 => ⟨S1x4, .f32⟩
  | 44 => ⟨S4, .f32⟩
  | 45 => ⟨S1x4, .f32⟩
  | 46 => ⟨S8388608x4, .f32⟩
  | 47 => ⟨S8388608x4, .f32⟩
  | 48 => ⟨S_, .f32⟩
  | 49 => ⟨S8388608x4, .f32⟩
  | 50 => ⟨S8388608x4, .f32⟩
  | 51 => ⟨S1x4x4, .f32⟩
  | 52 => ⟨S4x4, .f32⟩
  | 53 => ⟨S4x4, .f32⟩
  | 54 => ⟨S8388608x4, .f32⟩
  | 55 => ⟨S1x4, .f32⟩
  | 56 => ⟨S4, .f32⟩
  | 57 => ⟨S1x4, .f32⟩
  | 58 => ⟨S8388608x4, .f32⟩
  | 59 => ⟨S8388608x4, .f32⟩
  | 60 => ⟨S_, .f32⟩
  | 61 => ⟨S8388608x4, .f32⟩
  | 62 => ⟨S8388608x4, .f32⟩
  | 63 => ⟨S1x4x4, .f32⟩
  | 64 => ⟨S4x4, .f32⟩
  | 65 => ⟨S4x4, .f32⟩
  | 66 => ⟨S8388608x4, .f32⟩
  | 67 => ⟨S1x4, .f32⟩
  | 68 => ⟨S4, .f32⟩
  | 69 => ⟨S1x4, .f32⟩
  | 70 => ⟨S8388608x4, .f32⟩
  | 71 => ⟨S8388608x4, .f32⟩
  | 72 => ⟨S_, .f32⟩
  | 73 => ⟨S8388608x4, .f32⟩
  | 74 => ⟨S8388608x4, .f32⟩
  | 75 => ⟨S1x4x4, .f32⟩
  | 76 => ⟨S4x4, .f32⟩
  | 77 => ⟨S4x4, .f32⟩
  | 78 => ⟨S8388608x4, .f32⟩
  | 79 => ⟨S1x4, .f32⟩
  | 80 => ⟨S4, .f32⟩
  | 81 => ⟨S1x4, .f32⟩
  | 82 => ⟨S8388608x4, .f32⟩
  | 83 => ⟨S8388608x4, .f32⟩
  | 84 => ⟨S_, .f32⟩
  | 85 => ⟨S8388608x4, .f32⟩
  | 86 => ⟨S8388608x4, .f32⟩
  | 87 => ⟨S1x4x4, .f32⟩
  | 88 => ⟨S4x4, .f32⟩
  | 89 => ⟨S4x4, .f32⟩
  | 90 => ⟨S8388608x4, .f32⟩
  | 91 => ⟨S1x4, .f32⟩
  | 92 => ⟨S4, .f32⟩
  | 93 => ⟨S1x4, .f32⟩
  | 94 => ⟨S8388608x4, .f32⟩
  | 95 => ⟨S8388608x4, .f32⟩
  | 96 => ⟨S_, .f32⟩
  | 97 => ⟨S8388608x4, .f32⟩
  | 98 => ⟨S8388608x4, .f32⟩
  | 99 => ⟨S1x4x4, .f32⟩
  | 100 => ⟨S4x4, .f32⟩
  | 101 => ⟨S4x4, .f32⟩
  | 102 => ⟨S8388608x4, .f32⟩
  | 103 => ⟨S1x4, .f32⟩
  | 104 => ⟨S4, .f32⟩
  | 105 => ⟨S1x4, .f32⟩
  | 106 => ⟨S8388608x4, .f32⟩
  | 107 => ⟨S8388608x4, .f32⟩
  | 108 => ⟨S_, .f32⟩
  | 109 => ⟨S8388608x4, .f32⟩
  | 110 => ⟨S8388608x4, .f32⟩
  | 111 => ⟨S1x4x4, .f32⟩
  | 112 => ⟨S4x4, .f32⟩
  | 113 => ⟨S4x4, .f32⟩
  | 114 => ⟨S8388608x4, .f32⟩
  | 115 => ⟨S1x4, .f32⟩
  | 116 => ⟨S4, .f32⟩
  | 117 => ⟨S1x4, .f32⟩
  | 118 => ⟨S8388608x4, .f32⟩
  | 119 => ⟨S8388608x4, .f32⟩
  | 120 => ⟨S_, .f32⟩
  | 121 => ⟨S8388608x4, .f32⟩
  | 122 => ⟨S8388608x4, .f32⟩
  | 123 => ⟨S1x4x4, .f32⟩
  | 124 => ⟨S4x4, .f32⟩
  | 125 => ⟨S4x4, .f32⟩
  | 126 => ⟨S8388608x4, .f32⟩
  | 127 => ⟨S1x4, .f32⟩
  | _ => ⟨S8388608x2, .f32⟩

abbrev hbmTy0_1 (i : Nat) : BufTy := match i % 128 with
  | 0 => ⟨S4, .f32⟩
  | 1 => ⟨S1x4, .f32⟩
  | 2 => ⟨S8388608x4, .f32⟩
  | 3 => ⟨S8388608x4, .f32⟩
  | 4 => ⟨S_, .f32⟩
  | 5 => ⟨S8388608x4, .f32⟩
  | 6 => ⟨S8388608x4, .f32⟩
  | 7 => ⟨S4x1, .f32⟩
  | 8 => ⟨S8388608x1, .f32⟩
  | 9 => ⟨S1x1, .f32⟩
  | 10 => ⟨S8388608x1, .f32⟩
  | 11 => ⟨S8388608x1, .f32⟩
  | _ => ⟨S8388608x2, .f32⟩

abbrev hbmTy (i : Nat) : BufTy := match i / 128 with
  | 0 => hbmTy0_0 i
  | 1 => hbmTy0_1 i
  | _ => ⟨S8388608x2, .f32⟩

abbrev bufTy : (tb : Table) → Fin (tcTables nBuf tb) → BufTy
  | .hbm, ⟨i, _⟩ => hbmTy i
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call2_cst : Ref sig .tc := ⟨.hbm, 36, rfl⟩
abbrev main_call2_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call3_cst : Ref sig .tc := ⟨.hbm, 48, rfl⟩
abbrev main_call3_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call4_cst : Ref sig .tc := ⟨.hbm, 60, rfl⟩
abbrev main_call4_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call5_cst : Ref sig .tc := ⟨.hbm, 72, rfl⟩
abbrev main_call5_v0 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_call6_cst : Ref sig .tc := ⟨.hbm, 84, rfl⟩
abbrev main_call6_v0 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call7_cst : Ref sig .tc := ⟨.hbm, 96, rfl⟩
abbrev main_call7_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_call8_cst : Ref sig .tc := ⟨.hbm, 108, rfl⟩
abbrev main_call8_v0 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_call9_cst : Ref sig .tc := ⟨.hbm, 120, rfl⟩
abbrev main_call9_v0 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_call10_cst : Ref sig .tc := ⟨.hbm, 132, rfl⟩
abbrev main_call10_v0 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩

abbrev nD : Nat := 1
abbrev τ : Topo := Topo.v7x

variable {F : FTy → Type} [FloatOps F]

class Facts₀ : Prop where
  transposes_S4x2_S2x4_1_0 : S4x2.Transposes [1, 0] S2x4
  bcast_S4_S1x4_1 : S4.BroadcastsInDim S1x4 (![1] : Fin 1 → Fin S1x4.rank)
  bcast_S1x4_S8388608x4_0_1 : S1x4.BroadcastsInDim S8388608x4 (![0, 1] : Fin 2 → Fin S8388608x4.rank)
  bcast_S_S8388608x4 : S_.BroadcastsInDim S8388608x4 (![] : Fin 0 → Fin S8388608x4.rank)
  slices_S10x4x4_S1x4x4_0_0_0 : S10x4x4.Slices ![0, 0, 0] S1x4x4
  shapeCasts_S1x4x4_S4x4 : S1x4x4.ShapeCasts S4x4
  transposes_S4x4_S4x4_1_0 : S4x4.Transposes [1, 0] S4x4
  slices_S10x4_S1x4_0_0 : S10x4.Slices ![0, 0] S1x4
  shapeCasts_S1x4_S4 : S1x4.ShapeCasts S4
  slices_S10x4x4_S1x4x4_1_0_0 : S10x4x4.Slices ![1, 0, 0] S1x4x4
  slices_S10x4_S1x4_1_0 : S10x4.Slices ![1, 0] S1x4
  slices_S10x4x4_S1x4x4_2_0_0 : S10x4x4.Slices ![2, 0, 0] S1x4x4
  slices_S10x4_S1x4_2_0 : S10x4.Slices ![2, 0] S1x4
  slices_S10x4x4_S1x4x4_3_0_0 : S10x4x4.Slices ![3, 0, 0] S1x4x4
  slices_S10x4_S1x4_3_0 : S10x4.Slices ![3, 0] S1x4
  slices_S10x4x4_S1x4x4_4_0_0 : S10x4x4.Slices ![4, 0, 0] S1x4x4
  slices_S10x4_S1x4_4_0 : S10x4.Slices ![4, 0] S1x4
  slices_S10x4x4_S1x4x4_5_0_0 : S10x4x4.Slices ![5, 0, 0] S1x4x4
  slices_S10x4_S1x4_5_0 : S10x4.Slices ![5, 0] S1x4
  slices_S10x4x4_S1x4x4_6_0_0 : S10x4x4.Slices ![6, 0, 0] S1x4x4
  slices_S10x4_S1x4_6_0 : S10x4.Slices ![6, 0] S1x4
  slices_S10x4x4_S1x4x4_7_0_0 : S10x4x4.Slices ![7, 0, 0] S1x4x4
  slices_S10x4_S1x4_7_0 : S10x4.Slices ![7, 0] S1x4
  slices_S10x4x4_S1x4x4_8_0_0 : S10x4x4.Slices ![8, 0, 0] S1x4x4
  slices_S10x4_S1x4_8_0 : S10x4.Slices ![8, 0] S1x4
  slices_S10x4x4_S1x4x4_9_0_0 : S10x4x4.Slices ![9, 0, 0] S1x4x4
  slices_S10x4_S1x4_9_0 : S10x4.Slices ![9, 0] S1x4
  transposes_S1x4_S4x1_1_0 : S1x4.Transposes [1, 0] S4x1
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  dot_S8388608x2_S2x4_S8388608x4_1_0_0_1_n_n_wf : DotDims.WF S8388608x2 S2x4 S8388608x4 [1] [0] [0] [1] [] []
  dot_S8388608x4_S4x4_S8388608x4_1_0_0_1_n_n_wf : DotDims.WF S8388608x4 S4x4 S8388608x4 [1] [0] [0] [1] [] []
  dot_S8388608x4_S4x1_S8388608x1_1_0_0_1_n_n_wf : DotDims.WF S8388608x4 S4x1 S8388608x1 [1] [0] [0] [1] [] []

variable [Facts₀]

def dot_S8388608x2_S2x4_S8388608x4_1_0_0_1_n_n : DotDims S8388608x2 S2x4 S8388608x4 where
  lhsContracting := [1]
  rhsContracting := [0]
  lhsNonContracting := [0]
  rhsNonContracting := [1]
  lhsBatch := []
  rhsBatch := []
  wf := dot_S8388608x2_S2x4_S8388608x4_1_0_0_1_n_n_wf
def dot_S8388608x4_S4x4_S8388608x4_1_0_0_1_n_n : DotDims S8388608x4 S4x4 S8388608x4 where
  lhsContracting := [1]
  rhsContracting := [0]
  lhsNonContracting := [0]
  rhsNonContracting := [1]
  lhsBatch := []
  rhsBatch := []
  wf := dot_S8388608x4_S4x4_S8388608x4_1_0_0_1_n_n_wf
def dot_S8388608x4_S4x1_S8388608x1_1_0_0_1_n_n : DotDims S8388608x4 S4x1 S8388608x1 where
  lhsContracting := [1]
  rhsContracting := [0]
  lhsNonContracting := [0]
  rhsNonContracting := [1]
  lhsBatch := []
  rhsBatch := []
  wf := dot_S8388608x4_S4x1_S8388608x1_1_0_0_1_n_n_wf

class Facts : Prop extends Facts₀ where

variable [Facts]
-- ==== Proof.Spec.lean ====
/-
  The function both programs compute, on ONE row of the batch.

  A row of the input is a pair `x : Fin 2 → EReal`. The network is a perceptron of twelve affine layers:
  an input layer 2 → 4, ten hidden layers 4 → 4 and an output layer 4 → 1; every layer but the last is
  followed by the rectifier `max · 0`. Layer by layer, with `W` the layer's weights stored output-major
  (`W (j, k)` multiplies input coordinate `k` into output coordinate `j`) and `b` its bias,

      (layer h) j = max (∑ k, h k · W (j, k) + b j) 0        (no `max` on the output layer).

  Over the extended reals this is a plain term of `+`, `·`, `max` and finite sums; nothing here needs the
  entries to be finite, because the two programs form the same products in the same factor order and add the
  same bias to the same sum: they differ only in how the sum over `k` is spelt (a block product into a zero
  accumulator, a lane sum of a broadcast product, the host's contraction), and each of those IS this sum.
  The rectifier's floor is kept as the zero word read as an extended real, the same word on both sides.
-/
import Idealize.ShloMosaic.PureOps.Ideal
import Idealize.ShloMosaic.Lib.ValueIdx

noncomputable section

namespace Cert.Mlp

open Idealize.ShloMosaic Idealize.ShloMosaic.ValueIdx

/-- The rectifier's floor: the word of `0.0` read at the extended reals. -/
abbrev floor0 : EReal := Ideal.ofBits .f32 0x00000000#32

/-- The input layer on one row: `max (x · W0ᵀ + b0) 0`, from 2 coordinates to 4. -/
def inLayer (W0 : (⟨2, ![4, 2]⟩ : Shape).Idx → EReal) (b0 : (⟨1, ![4]⟩ : Shape).Idx → EReal)
    (x : Fin 2 → EReal) : Fin 4 → EReal :=
  fun j => max ((∑ k : Fin 2, x k * W0 (ix2 j k)) + b0 (ix1 j)) floor0

/-- Hidden layer `l` on one row: `max (h · Wh[l]ᵀ + bh[l]) 0`, from 4 coordinates to 4. -/
def hidLayer (Wh : (⟨3, ![10, 4, 4]⟩ : Shape).Idx → EReal) (bh : (⟨2, ![10, 4]⟩ : Shape).Idx → EReal)
    (l : Fin 10) (h : Fin 4 → EReal) : Fin 4 → EReal :=
  fun j => max ((∑ k : Fin 4, h k * Wh (ix3 l j k)) + bh (ix2 l j)) floor0

/-- The output layer on one row: `h · Woutᵀ + bout`, from 4 coordinates to 1, no rectifier. -/
def outLayer (Wout : (⟨2, ![1, 4]⟩ : Shape).Idx → EReal) (bout : (⟨1, ![1]⟩ : Shape).Idx → EReal)
    (h : Fin 4 → EReal) : EReal :=
  (∑ k : Fin 4, h k * Wout (ix2 (0 : Fin 1) k)) + bout (ix1 (0 : Fin 1))

/-- The ten hidden layers, in order, on one row. -/
def hiddenStack (Wh : (⟨3, ![10, 4, 4]⟩ : Shape).Idx → EReal) (bh : (⟨2, ![10, 4]⟩ : Shape).Idx → EReal)
    (h : Fin 4 → EReal) : Fin 4 → EReal :=
  hidLayer Wh bh 9 (hidLayer Wh bh 8 (hidLayer Wh bh 7 (hidLayer Wh bh 6 (hidLayer Wh bh 5
    (hidLayer Wh bh 4 (hidLayer Wh bh 3 (hidLayer Wh bh 2 (hidLayer Wh bh 1 (hidLayer Wh bh 0 h)))))))))

/-- The whole network on one row of the input. -/
def rowMlp (W0 : (⟨2, ![4, 2]⟩ : Shape).Idx → EReal) (b0 : (⟨1, ![4]⟩ : Shape).Idx → EReal)
    (Wh : (⟨3, ![10, 4, 4]⟩ : Shape).Idx → EReal) (bh : (⟨2, ![10, 4]⟩ : Shape).Idx → EReal)
    (Wout : (⟨2, ![1, 4]⟩ : Shape).Idx → EReal) (bout : (⟨1, ![1]⟩ : Shape).Idx → EReal)
    (x : Fin 2 → EReal) : EReal :=
  outLayer Wout bout (hiddenStack Wh bh (inLayer W0 b0 x))

/-- The result array: entry `(r, 0)` is the network on row `r` of the input array. -/
def mlp (X : (⟨2, ![8388608, 2]⟩ : Shape).Idx → EReal)
    (W0 : (⟨2, ![4, 2]⟩ : Shape).Idx → EReal) (b0 : (⟨1, ![4]⟩ : Shape).Idx → EReal)
    (Wh : (⟨3, ![10, 4, 4]⟩ : Shape).Idx → EReal) (bh : (⟨2, ![10, 4]⟩ : Shape).Idx → EReal)
    (Wout : (⟨2, ![1, 4]⟩ : Shape).Idx → EReal) (bout : (⟨1, ![1]⟩ : Shape).Idx → EReal) :
    (⟨2, ![8388608, 1]⟩ : Shape).Idx → EReal :=
  fun i => rowMlp W0 b0 Wh bh Wout bout (fun k => X (ix2 (i 0) k))

end Cert.Mlp

end
-- ==== Proof.KernelRow.lean ====
/-
  One row of the kernel's output block.

  At a grid point the body sees a block of 8192 rows of the input and the six parameter arrays whole. It
  computes, on the whole block at once, the twelve layers of the network: each of the first eleven is a block
  product of the activations with a weight matrix stored output-major (so the product contracts the LAST axis of
  both operands) into a zero accumulator, plus the bias broadcast down the rows, then the rectifier; the last is
  the activations times the one weight row broadcast down the rows, summed along each row from zero and kept as
  a column, plus the one bias. Read at row `r` over the extended reals, every one of these is the layer of
  Spec.lean on row `r`: a block product into zeros at `(r, j)` is `∑ k, h (r, k) · W (j, k)`, a row sum from
  zero is the same kind of sum, and the casts, loads and broadcasts only move coordinates. So the stored block,
  at `(r, 0)`, is `rowMlp` of row `r` of the input block (`out_block_row`).
-/
import proofs.«106356_j25718264169060_2_alg».proof.Proof.Gen.KernelIdeal.Frame
import proofs.«106356_j25718264169060_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Cert.Mlp Idealize.ShloMosaic Idealize.ShloMosaic.ValueIdx

/-! ## Loads through the body's rectangles -/

theorem zeros1 : (![0] : Fin 1 → Nat) = fun _ => 0 := funext fun a => by fin_cases a <;> rfl
theorem zeros2 : (![0, 0] : Fin 2 → Nat) = fun _ => 0 := funext fun a => by fin_cases a <;> rfl

/-- Slab `n` of the stacked hidden weights, loaded as a [1, 4, 4] vector, is the stack at `(n, ·, ·)`. -/
theorem ld_slab (x3 : Vec Ideal S10x4x4 .f32) (n : ℕ) (hn : n < 10)
    (inb : ∀ a, (![n, 0, 0] : Fin 3 → ℕ) a + S1x4x4.size a ≤ S10x4x4.size a) (j k : Fin 4) :
    View.ld x3 (Rect.unit (s := S10x4x4) ![n, 0, 0] S1x4x4.size inb) (ix3 (0 : Fin 1) j k)
      = x3 (ix3 (⟨n, hn⟩ : Fin 10) j k) := by
  refine congrArg x3 (funext fun a => Fin.ext ?_)
  match a with
  | ⟨0, _⟩ => show n + 1 * 0 = n; omega
  | ⟨1, _⟩ => show 0 + 1 * j.val = j.val; omega
  | ⟨2, _⟩ => show 0 + 1 * k.val = k.val; omega

/-- Row `n` of the stacked hidden biases, loaded as a [1, 4] vector, is the stack at `(n, ·)`. -/
theorem ld_biasrow (x4 : Vec Ideal S10x4 .f32) (n : ℕ) (hn : n < 10)
    (inb : ∀ a, (![n, 0] : Fin 2 → ℕ) a + S1x4.size a ≤ S10x4.size a) (j : Fin 4) :
    View.ld x4 (Rect.unit (s := S10x4) ![n, 0] S1x4.size inb) (ix2 (0 : Fin 1) j)
      = x4 (ix2 (⟨n, hn⟩ : Fin 10) j) := by
  refine congrArg x4 (funext fun a => Fin.ext ?_)
  match a with
  | ⟨0, _⟩ => show n + 1 * 0 = n; omega
  | ⟨1, _⟩ => show 0 + 1 * j.val = j.val; omega

/-! ## The block products as sums

Both products contract the LAST axis of each operand (the weights are stored output-major), into a zero
accumulator: entry `(r, j)` is `∑ k, lhs (r, k) · rhs (j, k)`. -/

/-- The contraction of the 4-wide block product reads its left operand's row coordinate off the output index … -/
theorem lhs44_0 (i : S8192x4.Idx) (q : dot_S8192x4_S4x4_S8192x4_1_1_0_0_n_n.contr.Idx) :
    (dot_S8192x4_S4x4_S8192x4_1_1_0_0_n_n.lhsIdx i q 0).val = (i 0).val := by
  unfold DotDims.lhsIdx
  rw [dif_neg (show ¬(0 : Fin S8192x4.rank) ∈ dot_S8192x4_S4x4_S8192x4_1_1_0_0_n_n.lhsBatch by decide),
    dif_pos (show (0 : Fin S8192x4.rank) ∈ dot_S8192x4_S4x4_S8192x4_1_1_0_0_n_n.lhsNonContracting by decide)]
  rfl
/-- … and its column coordinate off the contraction index; -/
theorem lhs44_1 (i : S8192x4.Idx) (q : dot_S8192x4_S4x4_S8192x4_1_1_0_0_n_n.contr.Idx) :
    (dot_S8192x4_S4x4_S8192x4_1_1_0_0_n_n.lhsIdx i q 1).val = (q ⟨0, by decide⟩).val :=
  dot_S8192x4_S4x4_S8192x4_1_1_0_0_n_n.lhsIdx_val_of_single rfl i q
/-- the right operand (the weights, output-major) is read at the output's column … -/
theorem rhs44_0 (i : S8192x4.Idx) (q : dot_S8192x4_S4x4_S8192x4_1_1_0_0_n_n.contr.Idx) :
    (dot_S8192x4_S4x4_S8192x4_1_1_0_0_n_n.rhsIdx i q 0).val = (i 1).val := by
  unfold DotDims.rhsIdx
  rw [dif_neg (show ¬(0 : Fin S4x4.rank) ∈ dot_S8192x4_S4x4_S8192x4_1_1_0_0_n_n.rhsBatch by decide),
    dif_pos (show (0 : Fin S4x4.rank) ∈ dot_S8192x4_S4x4_S8192x4_1_1_0_0_n_n.rhsNonContracting by decide)]
  rfl
/-- … and the contraction index. -/
theorem rhs44_1 (i : S8192x4.Idx) (q : dot_S8192x4_S4x4_S8192x4_1_1_0_0_n_n.contr.Idx) :
    (dot_S8192x4_S4x4_S8192x4_1_1_0_0_n_n.rhsIdx i q 1).val = (q ⟨0, by decide⟩).val :=
  dot_S8192x4_S4x4_S8192x4_1_1_0_0_n_n.rhsIdx_val_of_single rfl i q

theorem matmul44 (h : FVec Ideal S8192x4 .f32) (W : FVec Ideal S4x4 .f32) (r : Fin 8192) (j : Fin 4) :
    matmul dot_S8192x4_S4x4_S8192x4_1_1_0_0_n_n none h W (constant (F := Ideal) S8192x4 .f32 0x00000000#32) (ix2 r j)
      = ∑ k : Fin 4, h (ix2 r k) * W (ix2 j k) := by
  refine (Ideal.matmul_constant_zero_apply dot_S8192x4_S4x4_S8192x4_1_1_0_0_n_n none h W (ix2 r j)).trans ?_
  rw [← Equiv.sum_comp (contrEquiv1 dot_S8192x4_S4x4_S8192x4_1_1_0_0_n_n 4 rfl rfl).symm]
  refine Finset.sum_congr rfl fun k _ => ?_
  have hk := contrEquiv1_symm_val dot_S8192x4_S4x4_S8192x4_1_1_0_0_n_n 4 rfl rfl k
  have el : dot_S8192x4_S4x4_S8192x4_1_1_0_0_n_n.lhsIdx (ix2 r j)
      ((contrEquiv1 dot_S8192x4_S4x4_S8192x4_1_1_0_0_n_n 4 rfl rfl).symm k) = ix2 r k :=
    funext fun a => Fin.ext (by
      match a with
      | ⟨0, _⟩ => exact lhs44_0 _ _
      | ⟨1, _⟩ => exact (lhs44_1 _ _).trans hk)
  have er : dot_S8192x4_S4x4_S8192x4_1_1_0_0_n_n.rhsIdx (ix2 r j)
      ((contrEquiv1 dot_S8192x4_S4x4_S8192x4_1_1_0_0_n_n 4 rfl rfl).symm k) = ix2 j k :=
    funext fun a => Fin.ext (by
      match a with
      | ⟨0, _⟩ => exact rhs44_0 _ _
      | ⟨1, _⟩ => exact (rhs44_1 _ _).trans hk)
  rw [el, er]

theorem lhs24_0 (i : S8192x4.Idx) (q : dot_S8192x2_S4x2_S8192x4_1_1_0_0_n_n.contr.Idx) :
    (dot_S8192x2_S4x2_S8192x4_1_1_0_0_n_n.lhsIdx i q 0).val = (i 0).val := by
  unfold DotDims.lhsIdx
  rw [dif_neg (show ¬(0 : Fin S8192x2.rank) ∈ dot_S8192x2_S4x2_S8192x4_1_1_0_0_n_n.lhsBatch by decide),
    dif_pos (show (0 : Fin S8192x2.rank) ∈ dot_S8192x2_S4x2_S8192x4_1_1_0_0_n_n.lhsNonContracting by decide)]
  rfl
theorem lhs24_1 (i : S8192x4.Idx) (q : dot_S8192x2_S4x2_S8192x4_1_1_0_0_n_n.contr.Idx) :
    (dot_S8192x2_S4x2_S8192x4_1_1_0_0_n_n.lhsIdx i q 1).val = (q ⟨0, by decide⟩).val :=
  dot_S8192x2_S4x2_S8192x4_1_1_0_0_n_n.lhsIdx_val_of_single rfl i q
theorem rhs24_0 (i : S8192x4.Idx) (q : dot_S8192x2_S4x2_S8192x4_1_1_0_0_n_n.contr.Idx) :
    (dot_S8192x2_S4x2_S8192x4_1_1_0_0_n_n.rhsIdx i q 0).val = (i 1).val := by
  unfold DotDims.rhsIdx
  rw [dif_neg (show ¬(0 : Fin S4x2.rank) ∈ dot_S8192x2_S4x2_S8192x4_1_1_0_0_n_n.rhsBatch by decide),
    dif_pos (show (0 : Fin S4x2.rank) ∈ dot_S8192x2_S4x2_S8192x4_1_1_0_0_n_n.rhsNonContracting by decide)]
  rfl
theorem rhs24_1 (i : S8192x4.Idx) (q : dot_S8192x2_S4x2_S8192x4_1_1_0_0_n_n.contr.Idx) :
    (dot_S8192x2_S4x2_S8192x4_1_1_0_0_n_n.rhsIdx i q 1).val = (q ⟨0, by decide⟩).val :=
  dot_S8192x2_S4x2_S8192x4_1_1_0_0_n_n.rhsIdx_val_of_single rfl i q

theorem matmul24 (x : FVec Ideal S8192x2 .f32) (W : FVec Ideal S4x2 .f32) (r : Fin 8192) (j : Fin 4) :
    matmul dot_S8192x2_S4x2_S8192x4_1_1_0_0_n_n none x W (constant (F := Ideal) S8192x4 .f32 0x00000000#32) (ix2 r j)
      = ∑ k : Fin 2, x (ix2 r k) * W (ix2 j k) := by
  refine (Ideal.matmul_constant_zero_apply dot_S8192x2_S4x2_S8192x4_1_1_0_0_n_n none x W (ix2 r j)).trans ?_
  rw [← Equiv.sum_comp (contrEquiv1 dot_S8192x2_S4x2_S8192x4_1_1_0_0_n_n 2 rfl rfl).symm]
  refine Finset.sum_congr rfl fun k _ => ?_
  have hk := contrEquiv1_symm_val dot_S8192x2_S4x2_S8192x4_1_1_0_0_n_n 2 rfl rfl k
  have el : dot_S8192x2_S4x2_S8192x4_1_1_0_0_n_n.lhsIdx (ix2 r j)
      ((contrEquiv1 dot_S8192x2_S4x2_S8192x4_1_1_0_0_n_n 2 rfl rfl).symm k) = ix2 r k :=
    funext fun a => Fin.ext (by
      match a with
      | ⟨0, _⟩ => exact lhs24_0 _ _
      | ⟨1, _⟩ => exact (lhs24_1 _ _).trans hk)
  have er : dot_S8192x2_S4x2_S8192x4_1_1_0_0_n_n.rhsIdx (ix2 r j)
      ((contrEquiv1 dot_S8192x2_S4x2_S8192x4_1_1_0_0_n_n 2 rfl rfl).symm k) = ix2 j k :=
    funext fun a => Fin.ext (by
      match a with
      | ⟨0, _⟩ => exact rhs24_0 _ _
      | ⟨1, _⟩ => exact (rhs24_1 _ _).trans hk)
  rw [el, er]

/-! ## A column: an [a] vector cast to [a, 1] -/

/-- An `[a]` vector cast to `[a, 1]` (a sum with its axis kept) reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The layers on one row of a block -/

/-- Row `r` of a [8192, 4] block of activations. -/
def rowOf (h : FVec Ideal S8192x4 .f32) (r : Fin 8192) : Fin 4 → EReal := fun k => h (ix2 r k)

/-- The input layer as the body spells it — the block product with the [4, 2] weights into zeros, the bias cast
    to a row and broadcast down the block, the rectifier — is, on row `r`, the input layer of that row. -/
theorem in_row (x0 : FVec Ideal S8192x2 .f32) (x1 : FVec Ideal S4x2 .f32) (x2 : FVec Ideal S4 .f32)
    (c3 : S4.ShapeCasts S1x4) (bc : S1x4.Broadcasts S8192x4) (r : Fin 8192) :
    rowOf (maximumf (addf (matmul dot_S8192x2_S4x2_S8192x4_1_1_0_0_n_n none x0 x1 (constant (F := Ideal) S8192x4 .f32 0x00000000#32))
        (broadcastTo S8192x4 (shapeCast S1x4 x2 c3) bc))
      (broadcast S8192x4 (Scalar.ofBits (F := Ideal) .f32 0x00000000#32))) r
    = inLayer x1 x2 (fun k => x0 (ix2 r k)) := by
  funext j
  show max (matmul dot_S8192x2_S4x2_S8192x4_1_1_0_0_n_n none x0 x1 (constant (F := Ideal) S8192x4 .f32 0x00000000#32) (ix2 r j)
      + broadcastTo S8192x4 (shapeCast S1x4 x2 c3) bc (ix2 r j)) floor0
    = max ((∑ k : Fin 2, x0 (ix2 r k) * x1 (ix2 j k)) + x2 (ix1 j)) floor0
  rw [matmul24, broadcastTo_1b_ab_apply, shapeCast_a_1a_apply]

/-- Hidden layer `n` as the body spells it — slab `n` of the weights and row `n` of the biases loaded and cast,
    the block product into zeros, the bias broadcast, the rectifier — is, on row `r`, hidden layer `n` of
    that row of the incoming activations. -/
theorem hid_row (h : FVec Ideal S8192x4 .f32) (x3 : Vec Ideal S10x4x4 .f32) (x4 : Vec Ideal S10x4 .f32)
    (n : ℕ) (hn : n < 10)
    (inb3 : ∀ a, (![n, 0, 0] : Fin 3 → ℕ) a + S1x4x4.size a ≤ S10x4x4.size a)
    (inb4 : ∀ a, (![n, 0] : Fin 2 → ℕ) a + S1x4.size a ≤ S10x4.size a)
    (c1 : S1x4x4.ShapeCasts S4x4) (c2 : S1x4.ShapeCasts S4) (c3 : S4.ShapeCasts S1x4)
    (bc : S1x4.Broadcasts S8192x4) (r : Fin 8192) :
    rowOf (maximumf (addf (matmul (φ₁ := .f32) (φ₂ := .f32) dot_S8192x4_S4x4_S8192x4_1_1_0_0_n_n none h
          (shapeCast S4x4 (View.ld x3 (Rect.unit (s := S10x4x4) ![n, 0, 0] S1x4x4.size inb3)) c1)
          (constant (F := Ideal) S8192x4 .f32 0x00000000#32))
        (broadcastTo S8192x4 (shapeCast S1x4 (shapeCast S4 (View.ld x4 (Rect.unit (s := S10x4) ![n, 0] S1x4.size inb4)) c2) c3) bc))
      (broadcast S8192x4 (Scalar.ofBits (F := Ideal) .f32 0x00000000#32))) r
    = hidLayer x3 x4 ⟨n, hn⟩ (rowOf h r) := by
  funext j
  show max (matmul (φ₁ := .f32) (φ₂ := .f32) dot_S8192x4_S4x4_S8192x4_1_1_0_0_n_n none h
        (shapeCast S4x4 (View.ld x3 (Rect.unit (s := S10x4x4) ![n, 0, 0] S1x4x4.size inb3)) c1)
        (constant (F := Ideal) S8192x4 .f32 0x00000000#32) (ix2 r j)
      + broadcastTo S8192x4 (shapeCast S1x4 (shapeCast S4 (View.ld x4 (Rect.unit (s := S10x4) ![n, 0] S1x4.size inb4)) c2) c3) bc (ix2 r j)) floor0
    = max ((∑ k : Fin 4, h (ix2 r k) * x3 (ix3 (⟨n, hn⟩ : Fin 10) j k)) + x4 (ix2 (⟨n, hn⟩ : Fin 10) j)) floor0
  rw [matmul44, broadcastTo_1b_ab_apply, shapeCast_a_1a_apply, shapeCast_1a_a_apply, ld_biasrow x4 n hn]
  refine congrArg (fun s => max (s + x4 (ix2 (⟨n, hn⟩ : Fin 10) j)) floor0) (Finset.sum_congr rfl fun k _ => ?_)
  rw [shapeCast_1ab_ab_apply, ld_slab x3 n hn]

/-- The output layer as the body spells it — the activations times the [1, 4] weights broadcast down the block,
    summed along each row from zero, cast to a column, plus the one bias broadcast — is, at `(r, 0)`, the output
    layer of row `r`. -/
theorem out_row (h : FVec Ideal S8192x4 .f32) (x5 : FVec Ideal S1x4 .f32) (x6 : FVec Ideal S1 .f32)
    (bc : S1x4.Broadcasts S8192x4) (red : S8192x4.Reduces [1] S8192) (hφ : FKind.Formats .f32)
    (hacc : (0x00000000#32 : BitVec 32) = FKind.add.neutral .f32 hφ)
    (c4 : S8192.ShapeCasts S8192x1) (c5 : S1.ShapeCasts S1x1) (bc2 : S1x1.Broadcasts S8192x1) (r : Fin 8192) :
    addf (shapeCast S8192x1 (multiReduction (F := Ideal) .add [1] S8192 (mulf h (broadcastTo S8192x4 x5 bc)) 0x00000000#32 red hφ hacc) c4)
        (broadcastTo S8192x1 (shapeCast S1x1 x6 c5) bc2) (ix2 r (0 : Fin 1))
      = outLayer x5 x6 (rowOf h r) := by
  show shapeCast S8192x1 (multiReduction (F := Ideal) .add [1] S8192 (mulf h (broadcastTo S8192x4 x5 bc)) 0x00000000#32 red hφ hacc) c4 (ix2 r (0 : Fin 1))
      + broadcastTo S8192x1 (shapeCast S1x1 x6 c5) bc2 (ix2 r (0 : Fin 1))
    = (∑ k : Fin 4, h (ix2 r k) * x5 (ix2 (0 : Fin 1) k)) + x6 (ix1 (0 : Fin 1))
  rw [shapeCast_a_a1_apply, broadcastTo_1b_ab_apply, shapeCast_a_1a_apply]
  refine congrArg (· + x6 (ix1 (0 : Fin 1))) ?_
  refine (Ideal.multiReduction_add_single (mulf h (broadcastTo S8192x4 x5 bc)) 0x00000000#32 red hφ hacc (ix1 r)).trans ?_
  show ∑ k : Fin 4, mulf h (broadcastTo S8192x4 x5 bc) (red.lift (ix1 r) k) = _
  refine Finset.sum_congr rfl fun k _ => ?_
  have e : red.lift (ix1 r) k = ix2 r k := funext fun a => Fin.ext (by
    match a with
    | ⟨0, _⟩ => rfl
    | ⟨1, _⟩ => rfl)
  rw [e, mulf_apply, broadcastTo_1b_ab_apply]

/-! ## The body's payloads on one row

The body's arithmetic is cut into four terms: the input layer and hidden layers 0–1; hidden layers 2–5; hidden
layers 6–8; hidden layer 9 and the output layer. Each, on row `r`, is those layers of the row. -/

theorem pay2_row (x0 : Vec Ideal S8192x2 .f32) (x1 : Vec Ideal S4x2 .f32) (x2 : Vec Ideal S4 .f32)
    (x3 : Vec Ideal S10x4x4 .f32) (x4 : Vec Ideal S10x4 .f32) (r : Fin 8192) :
    rowOf (k0_pay2 (View.ld x0 r0_0) (View.ld x1 r0_1) (View.ld x2 r0_2) (View.ld x3 r0_3) (View.ld x4 r0_4)
        (View.ld x3 r0_5) (View.ld x4 r0_6)) r
      = hidLayer x3 x4 1 (hidLayer x3 x4 0 (inLayer x1 x2 (fun k => x0 (ix2 r k)))) := by
  rw [View.ld_unit_zero (S := S8192x2) zeros2, View.ld_unit_zero (S := S4x2) zeros2, View.ld_unit_zero (S := S4) zeros1]
  unfold k0_pay2
  refine (hid_row _ x3 x4 1 (by decide) _ _ _ _ _ _ r).trans ?_
  refine congrArg (hidLayer x3 x4 1) ?_
  refine (hid_row _ x3 x4 0 (by decide) _ _ _ _ _ _ r).trans ?_
  refine congrArg (hidLayer x3 x4 0) ?_
  exact in_row x0 x1 x2 _ _ r

theorem pay5_row (v28 : FVec Ideal S8192x4 .f32) (x3 : Vec Ideal S10x4x4 .f32) (x4 : Vec Ideal S10x4 .f32) (r : Fin 8192) :
    rowOf (k0_pay5 v28 (k0_pay3 (View.ld x3 r0_7)) (k0_pay4 (View.ld x4 r0_8)) (View.ld x3 r0_9) (View.ld x4 r0_10)
        (View.ld x3 r0_11) (View.ld x4 r0_12) (View.ld x3 r0_13) (View.ld x4 r0_14)) r
      = hidLayer x3 x4 5 (hidLayer x3 x4 4 (hidLayer x3 x4 3 (hidLayer x3 x4 2 (rowOf v28 r)))) := by
  unfold k0_pay5 k0_pay3 k0_pay4
  refine (hid_row _ x3 x4 5 (by decide) _ _ _ _ _ _ r).trans ?_
  refine congrArg (hidLayer x3 x4 5) ?_
  refine (hid_row _ x3 x4 4 (by decide) _ _ _ _ _ _ r).trans ?_
  refine congrArg (hidLayer x3 x4 4) ?_
  refine (hid_row _ x3 x4 3 (by decide) _ _ _ _ _ _ r).trans ?_
  refine congrArg (hidLayer x3 x4 3) ?_
  exact hid_row v28 x3 x4 2 (by decide) _ _ _ _ _ _ r

theorem pay6_row (v68 : FVec Ideal S8192x4 .f32) (x3 : Vec Ideal S10x4x4 .f32) (x4 : Vec Ideal S10x4 .f32) (r : Fin 8192) :
    rowOf (k0_pay6 v68 (View.ld x3 r0_15) (View.ld x4 r0_16) (View.ld x3 r0_17) (View.ld x4 r0_18)
        (View.ld x3 r0_19) (View.ld x4 r0_20)) r
      = hidLayer x3 x4 8 (hidLayer x3 x4 7 (hidLayer x3 x4 6 (rowOf v68 r))) := by
  unfold k0_pay6
  refine (hid_row _ x3 x4 8 (by decide) _ _ _ _ _ _ r).trans ?_
  refine congrArg (hidLayer x3 x4 8) ?_
  refine (hid_row _ x3 x4 7 (by decide) _ _ _ _ _ _ r).trans ?_
  refine congrArg (hidLayer x3 x4 7) ?_
  exact hid_row v68 x3 x4 6 (by decide) _ _ _ _ _ _ r

theorem pay1_at (v98 : FVec Ideal S8192x4 .f32) (x3 : Vec Ideal S10x4x4 .f32) (x4 : Vec Ideal S10x4 .f32)
    (x5 : Vec Ideal S1x4 .f32) (x6 : Vec Ideal S1 .f32) (r : Fin 8192) :
    k0_pay1 v98 (k0_pay7 (View.ld x3 r0_21)) (k0_pay8 (View.ld x4 r0_22)) (constant (F := Ideal) S8192x4 .f32 0x00000000#32)
        (View.ld x5 r0_23) (View.ld x6 r0_24) (ix2 r (0 : Fin 1))
      = outLayer x5 x6 (hidLayer x3 x4 9 (rowOf v98 r)) := by
  rw [View.ld_unit_zero (S := S1x4) zeros2, View.ld_unit_zero (S := S1) zeros1]
  unfold k0_pay1 k0_pay7 k0_pay8
  refine (out_row _ x5 x6 _ _ _ _ _ _ _ r).trans ?_
  refine congrArg (outLayer x5 x6) ?_
  exact hid_row v98 x3 x4 9 (by decide) _ _ _ _ _ _ r

/-- WHAT THE BODY LEAVES in the output block, at row `r`: the network on row `r` of the input block, with the
    parameter blocks as they are. -/
theorem out_block_row (x0 : Vec Ideal S8192x2 .f32) (x1 : Vec Ideal S4x2 .f32) (x2 : Vec Ideal S4 .f32)
    (x3 : Vec Ideal S10x4x4 .f32) (x4 : Vec Ideal S10x4 .f32) (x5 : Vec Ideal S1x4 .f32) (x6 : Vec Ideal S1 .f32)
    (r : Fin 8192) :
    out0_7 x0 x1 x2 x3 x4 x5 x6 (ix2 r (0 : Fin 1)) = rowMlp x1 x2 x3 x4 x5 x6 (fun k => x0 (ix2 r k)) := by
  unfold out0_7
  rw [View.canon_unit_zero zeros2]
  refine (pay1_at _ x3 x4 x5 x6 r).trans ?_
  unfold rowMlp hiddenStack
  refine congrArg (outLayer x5 x6) (congrArg (hidLayer x3 x4 9) ?_)
  refine (pay6_row _ x3 x4 r).trans ?_
  refine congrArg (fun h => hidLayer x3 x4 8 (hidLayer x3 x4 7 (hidLayer x3 x4 6 h))) ?_
  refine (pay5_row _ x3 x4 r).trans ?_
  refine congrArg (fun h => hidLayer x3 x4 5 (hidLayer x3 x4 4 (hidLayer x3 x4 3 (hidLayer x3 x4 2 h)))) ?_
  exact pay2_row x0 x1 x2 x3 x4 r

end Cert.KernelIdeal.Row

end
-- ==== Proof.KernelValue.lean ====
/-
  The kernel's whole result array.

  The grid has 1024 points; point `t` stages rows `8192 t … 8192 t + 8191` of the input array and of the result
  array, and the six parameter arrays whole (their block indices are zero at every point). By KernelRow.lean the
  body leaves, in the output block at `(p, 0)`, the network on row `p` of the input block, which is row
  `8192 t + p` of the input array: so what point `t` writes back is block `t` of ONE function of the argument
  arrays, `mlp` (`flushed_eq`). Every row `r` lies in the block of point `r / 8192`, so the blocks cover the array
  (`cover`), and the array after the run is `mlp` of the arguments (`final`, `run`).
-/
import proofs.«106356_j25718264169060_2_alg».proof.Proof.Gen.KernelIdeal.Value
import proofs.«106356_j25718264169060_2_alg».proof.Proof.KernelRow
import Idealize.ShloMosaic.Lib.ValueIdx
import Idealize.ShloMosaic.Lib.Pipeline.Value

set_option maxRecDepth 16384

noncomputable section

namespace Cert.KernelIdeal.Whole

open Cert.KernelIdeal Cert.KernelIdeal.Gen Cert.KernelIdeal.Value Cert.KernelIdeal.Row Cert.Mlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array as ONE function of the argument arrays as the region finds them. -/
abbrev G (c : Dev nD) : S8388608x1.Idx → EReal :=
  mlp (V m c main_arg0) (V m c main_arg1) (V m c main_arg2) (V m c main_arg3) (V m c main_arg4) (V m c main_arg5) (V m c main_arg6)

/-- The printed index maps, decided once over the 1024 grid points: the input rows move with the output rows,
    every other block index is zero (the parameters are staged whole), and the output's block index is the point. -/
theorem idx_facts : ∀ t : Fin cfg0.N,
    win0_0.index t (0 : Fin 2) = win0_7.index t (0 : Fin 2) ∧ win0_0.index t (1 : Fin 2) = 0
    ∧ win0_7.index t (1 : Fin 2) = 0 ∧ win0_7.index t (0 : Fin 2) ≤ 1023
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 :=
  (by decide +kernel : ∀ t : Fin grid0.N, _)

/-! ## The input windows' blocks -/

theorem blk1 (c : Dev nD) (t : Fin cfg0.N) : iblk m c 1 t = V m c main_arg1 := by
  obtain ⟨_, _, _, _, e0, e1, _⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 4 + 1 * (y 0).val = (y 0).val; omega
  | ⟨1, _⟩ => show win0_1.index t (1 : Fin 2) * 2 + 1 * (y 1).val = (y 1).val; omega

theorem blk2 (c : Dev nD) (t : Fin cfg0.N) : iblk m c 2 t = V m c main_arg2 := by
  obtain ⟨_, _, _, _, _, _, e0, _⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 4 + 1 * (y 0).val = (y 0).val; omega

theorem blk3 (c : Dev nD) (t : Fin cfg0.N) : iblk m c 3 t = V m c main_arg3 := by
  obtain ⟨_, _, _, _, _, _, _, e0, e1, e2, _⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 3) * 10 + 1 * (y 0).val = (y 0).val; omega
  | ⟨1, _⟩ => show win0_3.index t (1 : Fin 3) * 4 + 1 * (y 1).val = (y 1).val; omega
  | ⟨2, _⟩ => show win0_3.index t (2 : Fin 3) * 4 + 1 * (y 2).val = (y 2).val; omega

theorem blk4 (c : Dev nD) (t : Fin cfg0.N) : iblk m c 4 t = V m c main_arg4 := by
  obtain ⟨_, _, _, _, _, _, _, _, _, _, e0, e1, _⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 10 + 1 * (y 0).val = (y 0).val; omega
  | ⟨1, _⟩ => show win0_4.index t (1 : Fin 2) * 4 + 1 * (y 1).val = (y 1).val; omega

theorem blk5 (c : Dev nD) (t : Fin cfg0.N) : iblk m c 5 t = V m c main_arg5 := by
  obtain ⟨_, _, _, _, _, _, _, _, _, _, _, _, e0, e1, _⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 1 + 1 * (y 0).val = (y 0).val; omega
  | ⟨1, _⟩ => show win0_5.index t (1 : Fin 2) * 4 + 1 * (y 1).val = (y 1).val; omega

theorem blk6 (c : Dev nD) (t : Fin cfg0.N) : iblk m c 6 t = V m c main_arg6 := by
  obtain ⟨_, _, _, _, _, _, _, _, _, _, _, _, _, _, e0⟩ := idx_facts t
  funext y
  show V m c main_arg6 (((cfg0.win 6).blk t).view.emb y) = V m c main_arg6 y
  refine congrArg (V m c main_arg6) (funext fun a => Fin.ext ?_)
  match a with
  | ⟨0, _⟩ => show win0_6.index t (0 : Fin 1) * 1 + 1 * (y 0).val = (y 0).val; omega

/-- Row `p` of the input block at point `t` is row `T · 8192 + p` of the input array, `T` the output's block index. -/
theorem blk0 (c : Dev nD) (t : Fin cfg0.N) (p : Fin 8192) (k : Fin 2) (R : Fin 8388608)
    (hR : R.val = win0_7.index t (0 : Fin 2) * 8192 + p.val) :
    iblk m c 0 t (ix2 p k) = V m c main_arg0 (ix2 R k) := by
  obtain ⟨e0, e1, _⟩ := idx_facts t
  show V m c main_arg0 (((cfg0.win 0).blk t).view.emb (ix2 p k)) = V m c main_arg0 (ix2 R k)
  refine congrArg (V m c main_arg0) (funext fun a => Fin.ext ?_)
  match a with
  | ⟨0, _⟩ => show win0_0.index t (0 : Fin 2) * 8192 + 1 * p.val = R.val; omega
  | ⟨1, _⟩ => show win0_0.index t (1 : Fin 2) * 2 + 1 * k.val = k.val; omega

/-! ## What a point writes back, and the whole array -/

/-- One block of the result, over variables: if the parameter blocks are the parameter arrays and row `p` of the
    input block is row `R p` of the input array, the body's block at `(p, 0)` is the result function at `(R p, 0)`. -/
theorem block_at (X0 : S8388608x2.Idx → EReal) (x0 : Vec Ideal S8192x2 .f32)
    (x1 A1 : Vec Ideal S4x2 .f32) (x2 A2 : Vec Ideal S4 .f32) (x3 A3 : Vec Ideal S10x4x4 .f32)
    (x4 A4 : Vec Ideal S10x4 .f32) (x5 A5 : Vec Ideal S1x4 .f32) (x6 A6 : Vec Ideal S1 .f32)
    (e1 : x1 = A1) (e2 : x2 = A2) (e3 : x3 = A3) (e4 : x4 = A4) (e5 : x5 = A5) (e6 : x6 = A6)
    (p : Fin 8192) (R : Fin 8388608) (h0 : ∀ k : Fin 2, x0 (ix2 p k) = X0 (ix2 R k)) :
    out0_7 x0 x1 x2 x3 x4 x5 x6 (ix2 p (0 : Fin 1)) = mlp X0 A1 A2 A3 A4 A5 A6 (ix2 R (0 : Fin 1)) := by
  subst e1 e2 e3 e4 e5 e6
  rw [out_block_row]
  show rowMlp x1 x2 x3 x4 x5 x6 (fun k => x0 (ix2 p k)) = rowMlp x1 x2 x3 x4 x5 x6 (fun k => X0 (ix2 R k))
  exact congrArg (rowMlp x1 x2 x3 x4 x5 x6) (funext h0)

/-- WHAT POINT `t` WRITES BACK is block `t` of the result function of the argument arrays. -/
theorem flushed_eq (c : Dev nD) (t : Fin cfg0.N) :
    (dats m 0 c).flushed 7 t = ((cfg0.win 7).blk t).view.read (Elt Ideal) (G m c) := by
  rw [flushed7]
  obtain ⟨_, _, e71, e70, _⟩ := idx_facts t
  funext y
  obtain ⟨p, q, rfl⟩ : ∃ (p : Fin 8192) (q : Fin 1), y = ix2 p q := ⟨y 0, y 1, eq_ix2 y⟩
  have hq : q = 0 := Subsingleton.elim _ _
  subst hq
  have hlt : win0_7.index t (0 : Fin 2) * 8192 + p.val < 8388608 := by have := p.isLt; omega
  show out0_7 (iblk m c 0 t) (iblk m c 1 t) (iblk m c 2 t) (iblk m c 3 t) (iblk m c 4 t) (iblk m c 5 t) (iblk m c 6 t) (ix2 p (0 : Fin 1))
    = G m c (((cfg0.win 7).blk t).view.emb (ix2 p (0 : Fin 1)))
  refine (block_at (V m c main_arg0) (iblk m c 0 t) (iblk m c 1 t) (V m c main_arg1) (iblk m c 2 t) (V m c main_arg2)
    (iblk m c 3 t) (V m c main_arg3) (iblk m c 4 t) (V m c main_arg4) (iblk m c 5 t) (V m c main_arg5)
    (iblk m c 6 t) (V m c main_arg6) (blk1 m c t) (blk2 m c t) (blk3 m c t) (blk4 m c t) (blk5 m c t) (blk6 m c t)
    p ⟨win0_7.index t (0 : Fin 2) * 8192 + p.val, hlt⟩ (fun k => blk0 m c t p k _ rfl)).trans ?_
  refine congrArg (G m c) (funext fun a => Fin.ext ?_)
  match a with
  | ⟨0, _⟩ => show win0_7.index t (0 : Fin 2) * 8192 + p.val = win0_7.index t (0 : Fin 2) * 8192 + 1 * p.val; omega
  | ⟨1, _⟩ => show 0 = win0_7.index t (1 : Fin 2) * 1 + 1 * 0; omega

/-- An index of the array is in point `t`'s block iff each coordinate is in the block's range on its axis. -/
theorem mem_blk (t : Fin cfg0.N) (i : S8388608x1.Idx) :
    i ∈ ((cfg0.win 7).blk t).view.set ↔ ∀ a : Fin 2, win0_7.index t a * S8192x1.size a ≤ (i a).val
      ∧ (i a).val < win0_7.index t a * S8192x1.size a + S8192x1.size a := by
  show i ∈ ((View.whole main_v0).slice (win0_7.rect t)).set ↔ _
  rw [View.set_slice_whole, Rect.mem_set_unit]
  exact Iff.rfl

/-- Every index is in the block of the point its row falls in: point `r / 8192`. -/
theorem cover (i : S8388608x1.Idx) :
    ∃ t : Fin cfg0.N, (cfg0.win 7).flush t = true ∧ i ∈ ((cfg0.win 7).blk t).view.set := by
  have hi0 : (i 0).val < 8388608 := (i 0).isLt
  have hi1 : (i 1).val < 1 := (i 1).isLt
  have hN : cfg0.N = 1024 := N_0
  have hlt : (i 0).val / 8192 < cfg0.N := by rw [hN]; omega
  have e0 : win0_7.index ⟨(i 0).val / 8192, hlt⟩ (0 : Fin 2) = (i 0).val / 8192 := idx_pt7 ⟨(i 0).val / 8192, hlt⟩
  obtain ⟨_, _, e71, _⟩ := idx_facts ⟨(i 0).val / 8192, hlt⟩
  refine ⟨⟨(i 0).val / 8192, hlt⟩, flush0_7 _, ?_⟩
  rw [mem_blk]
  intro a
  match a with
  | ⟨0, _⟩ =>
    show win0_7.index ⟨(i 0).val / 8192, hlt⟩ (0 : Fin 2) * 8192 ≤ (i 0).val
      ∧ (i 0).val < win0_7.index ⟨(i 0).val / 8192, hlt⟩ (0 : Fin 2) * 8192 + 8192
    omega
  | ⟨1, _⟩ =>
    show win0_7.index ⟨(i 0).val / 8192, hlt⟩ (1 : Fin 2) * 1 ≤ (i 1).val
      ∧ (i 1).val < win0_7.index ⟨(i 0).val / 8192, hlt⟩ (1 : Fin 2) * 1 + 1
    omega

/-- THE ARRAY after the run is the result function of the argument arrays. -/
theorem final (c : Dev nD) : (dats m 0 c).arrAt 7 cfg0.N = G m c :=
  (dats m 0 c).arrAt_eq_of_cover 7 (G m c) (fun t _ => flushed_eq m c t) (fun i => cover i)

/-- The kernel's run: the result array ends at the network applied row by row to the arguments, which end unchanged. -/
theorem run : θ_run defs (onTc (τ := τ) (main (F := Ideal))) ⟨m, fun _ => 0, ρ⟩ fun r => ∀ c : Dev nD,
      r.2.mem ((c : Thread nD τ).loc main_v0) = mlp (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Whole

end
-- ==== Proof.RefRow.lean ====
/-
  One row of the reference's result.

  The reference applies the same twelve layers to the whole batch of 8388608 rows at once: each weight matrix is
  sliced out of its stack (the hidden ones), reshaped and transposed, and contracted on the host with the
  activations — left operand's last axis against right operand's first, so that entry `(r, j)` is
  `∑ k, h (r, k) · Wᵀ (k, j) = ∑ k, h (r, k) · W (j, k)`, the same products in the same factor order as the
  specification's —; the bias is broadcast down the batch and added; the rectifier is a maximum against a
  broadcast zero. Read at row `r` over the extended reals every layer is the layer of Spec.lean on that row, so
  the result at `(r, 0)` is `rowMlp` of row `r` of the input array (`result_row`).
-/
import proofs.«106356_j25718264169060_2_alg».proof.Proof.Gen.ReferenceIdeal.Read
import proofs.«106356_j25718264169060_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.Row

open Cert.ReferenceIdeal Cert.ReferenceIdeal.Gen Cert.ReferenceIdeal.Read Cert.Mlp Idealize.ShloMosaic Idealize.ShloMosaic.ValueIdx

/-! ## The host's contractions as sums

Each `dot_general` of the reference contracts the left operand's last axis with the right operand's FIRST axis
(the weights having been transposed in front): entry `(r, j)` is `∑ k, lhs (r, k) · rhs (k, j)`. The coordinates of
the operand indices are the generated read-back module's. -/

theorem dot44 (h : FVec Ideal S8388608x4 .f32) (W : FVec Ideal S4x4 .f32) (r : Fin 8388608) (j : Fin 4) :
    Host.dotGeneral dot_S8388608x4_S4x4_S8388608x4_1_0_0_1_n_n none h W (ix2 r j) = ∑ k : Fin 4, h (ix2 r k) * W (ix2 k j) := by
  simp only [Host.dotGeneral]
  rw [Ideal.dotGeneral_apply, ← Equiv.sum_comp (contrEquiv1 dot_S8388608x4_S4x4_S8388608x4_1_0_0_1_n_n 4 rfl rfl).symm]
  refine Finset.sum_congr rfl fun k _ => ?_
  have hk := contrEquiv1_symm_val dot_S8388608x4_S4x4_S8388608x4_1_0_0_1_n_n 4 rfl rfl k
  have el : dot_S8388608x4_S4x4_S8388608x4_1_0_0_1_n_n.lhsIdx (ix2 r j) ((contrEquiv1 dot_S8388608x4_S4x4_S8388608x4_1_0_0_1_n_n 4 rfl rfl).symm k) = ix2 r k :=
    funext fun a => Fin.ext (by
      match a with
      | ⟨0, _⟩ => exact lhs_main_v9_0 _ _
      | ⟨1, _⟩ => exact (lhs_main_v9_1 _ _).trans hk)
  have er : dot_S8388608x4_S4x4_S8388608x4_1_0_0_1_n_n.rhsIdx (ix2 r j) ((contrEquiv1 dot_S8388608x4_S4x4_S8388608x4_1_0_0_1_n_n 4 rfl rfl).symm k) = ix2 k j :=
    funext fun a => Fin.ext (by
      match a with
      | ⟨0, _⟩ => exact (rhs_main_v9_0 _ _).trans hk
      | ⟨1, _⟩ => exact rhs_main_v9_1 _ _)
  rw [el, er]

theorem dot24 (h : FVec Ideal S8388608x2 .f32) (W : FVec Ideal S2x4 .f32) (r : Fin 8388608) (j : Fin 4) :
    Host.dotGeneral dot_S8388608x2_S2x4_S8388608x4_1_0_0_1_n_n none h W (ix2 r j) = ∑ k : Fin 2, h (ix2 r k) * W (ix2 k j) := by
  simp only [Host.dotGeneral]
  rw [Ideal.dotGeneral_apply, ← Equiv.sum_comp (contrEquiv1 dot_S8388608x2_S2x4_S8388608x4_1_0_0_1_n_n 2 rfl rfl).symm]
  refine Finset.sum_congr rfl fun k _ => ?_
  have hk := contrEquiv1_symm_val dot_S8388608x2_S2x4_S8388608x4_1_0_0_1_n_n 2 rfl rfl k
  have el : dot_S8388608x2_S2x4_S8388608x4_1_0_0_1_n_n.lhsIdx (ix2 r j) ((contrEquiv1 dot_S8388608x2_S2x4_S8388608x4_1_0_0_1_n_n 2 rfl rfl).symm k) = ix2 r k :=
    funext fun a => Fin.ext (by
      match a with
      | ⟨0, _⟩ => exact lhs_main_v1_0 _ _
      | ⟨1, _⟩ => exact (lhs_main_v1_1 _ _).trans hk)
  have er : dot_S8388608x2_S2x4_S8388608x4_1_0_0_1_n_n.rhsIdx (ix2 r j) ((contrEquiv1 dot_S8388608x2_S2x4_S8388608x4_1_0_0_1_n_n 2 rfl rfl).symm k) = ix2 k j :=
    funext fun a => Fin.ext (by
      match a with
      | ⟨0, _⟩ => exact (rhs_main_v1_0 _ _).trans hk
      | ⟨1, _⟩ => exact rhs_main_v1_1 _ _)
  rw [el, er]

theorem dot41 (h : FVec Ideal S8388608x4 .f32) (W : FVec Ideal S4x1 .f32) (r : Fin 8388608) (j : Fin 1) :
    Host.dotGeneral dot_S8388608x4_S4x1_S8388608x1_1_0_0_1_n_n none h W (ix2 r j) = ∑ k : Fin 4, h (ix2 r k) * W (ix2 k j) := by
  simp only [Host.dotGeneral]
  rw [Ideal.dotGeneral_apply, ← Equiv.sum_comp (contrEquiv1 dot_S8388608x4_S4x1_S8388608x1_1_0_0_1_n_n 4 rfl rfl).symm]
  refine Finset.sum_congr rfl fun k _ => ?_
  have hk := contrEquiv1_symm_val dot_S8388608x4_S4x1_S8388608x1_1_0_0_1_n_n 4 rfl rfl k
  have el : dot_S8388608x4_S4x1_S8388608x1_1_0_0_1_n_n.lhsIdx (ix2 r j) ((contrEquiv1 dot_S8388608x4_S4x1_S8388608x1_1_0_0_1_n_n 4 rfl rfl).symm k) = ix2 r k :=
    funext fun a => Fin.ext (by
      match a with
      | ⟨0, _⟩ => exact lhs_main_v107_0 _ _
      | ⟨1, _⟩ => exact (lhs_main_v107_1 _ _).trans hk)
  have er : dot_S8388608x4_S4x1_S8388608x1_1_0_0_1_n_n.rhsIdx (ix2 r j) ((contrEquiv1 dot_S8388608x4_S4x1_S8388608x1_1_0_0_1_n_n 4 rfl rfl).symm k) = ix2 k j :=
    funext fun a => Fin.ext (by
      match a with
      | ⟨0, _⟩ => exact (rhs_main_v107_0 _ _).trans hk
      | ⟨1, _⟩ => exact rhs_main_v107_1 _ _)
  rw [el, er]

/-! ## The host's broadcasts and slices at an index -/

/-- A vector placed on the second axis of a one-row matrix. -/
theorem bcast_vec_row {α : Type} {a : ℕ} (v : (⟨1, ![a]⟩ : Shape).Idx → α)
    (h : (⟨1, ![a]⟩ : Shape).BroadcastsInDim ⟨2, ![1, a]⟩ (![1] : Fin 1 → Fin 2)) (u : Fin 1) (j : Fin a) :
    broadcastInDim ⟨2, ![1, a]⟩ ![1] h v (ix2 u j) = v (ix1 j) :=
  broadcastInDim_apply _ h v _ _ (fun b => match b with
    | ⟨0, _⟩ => by
      show j.val = if a = 1 then 0 else j.val
      split
      · have := j.isLt; omega
      · rfl)

/-- One row repeated down `n` rows. -/
theorem bcast_row_rows {α : Type} {n a : ℕ} (v : (⟨2, ![1, a]⟩ : Shape).Idx → α)
    (h : (⟨2, ![1, a]⟩ : Shape).BroadcastsInDim ⟨2, ![n, a]⟩ (![0, 1] : Fin 2 → Fin 2)) (r : Fin n) (j : Fin a) :
    broadcastInDim ⟨2, ![n, a]⟩ ![0, 1] h v (ix2 r j) = v (ix2 (0 : Fin 1) j) :=
  broadcastInDim_apply _ h v _ _ (fun b => match b with
    | ⟨0, _⟩ => by show 0 = if (1 : Nat) = 1 then 0 else r.val; rw [if_pos rfl]
    | ⟨1, _⟩ => by
      show j.val = if a = 1 then 0 else j.val
      split
      · have := j.isLt; omega
      · rfl)

/-- Slab `n` of the stacked hidden weights, sliced out as a [1, 4, 4] array, is the stack at `(n, ·, ·)`. -/
theorem slice_slab (x3 : FVec Ideal S10x4x4 .f32) (n : ℕ) (hn : n < 10) (s3 : S10x4x4.Slices ![n, 0, 0] S1x4x4)
    (j k : Fin 4) :
    extractStridedSlice S1x4x4 ![n, 0, 0] x3 s3 (ix3 (0 : Fin 1) j k) = x3 (ix3 (⟨n, hn⟩ : Fin 10) j k) :=
  extractStridedSlice_apply ![n, 0, 0] x3 s3 _ _ (fun a => match a with
    | ⟨0, _⟩ => by show n = n + 0; omega
    | ⟨1, _⟩ => by show j.val = 0 + j.val; omega
    | ⟨2, _⟩ => by show k.val = 0 + k.val; omega)

/-! ## The layers on one row of the batch -/

/-- Row `r` of a [8388608, 4] array of activations. -/
def rowOfR (h : FVec Ideal S8388608x4 .f32) (r : Fin 8388608) : Fin 4 → EReal := fun k => h (ix2 r k)

/-- The reference's input layer — the contraction with the transposed [4, 2] weights, the bias broadcast down
    the batch, the rectifier — is, on row `r`, the input layer of that row. -/
theorem in_row (x0 : FVec Ideal S8388608x2 .f32) (x1 : FVec Ideal S4x2 .f32) (x2 : FVec Ideal S4 .f32)
    (tr : S4x2.Transposes [1, 0] S2x4)
    (b1 : S4.BroadcastsInDim S1x4 (![1] : Fin 1 → Fin S1x4.rank))
    (b2 : S1x4.BroadcastsInDim S8388608x4 (![0, 1] : Fin 2 → Fin S8388608x4.rank))
    (b0 : S_.BroadcastsInDim S8388608x4 (![] : Fin 0 → Fin S8388608x4.rank)) (r : Fin 8388608) :
    rowOfR (maximumf (addf (Host.dotGeneral (φ₁ := .f32) (φ₂ := .f32) dot_S8388608x2_S2x4_S8388608x4_1_0_0_1_n_n none x0 (transpose S2x4 [1, 0] x1 tr))
        (broadcastInDim S8388608x4 ![0, 1] b2 (broadcastInDim S1x4 ![1] b1 x2)))
      (broadcastInDim S8388608x4 ![] b0 (constant (F := Ideal) S_ .f32 0x00000000#32))) r
    = inLayer x1 x2 (fun k => x0 (ix2 r k)) := by
  funext j
  show max (Host.dotGeneral (φ₁ := .f32) (φ₂ := .f32) dot_S8388608x2_S2x4_S8388608x4_1_0_0_1_n_n none x0 (transpose S2x4 [1, 0] x1 tr) (ix2 r j)
      + broadcastInDim S8388608x4 ![0, 1] b2 (broadcastInDim S1x4 ![1] b1 x2) (ix2 r j))
      (broadcastInDim S8388608x4 ![] b0 (constant (F := Ideal) S_ .f32 0x00000000#32) (ix2 r j))
    = max ((∑ k : Fin 2, x0 (ix2 r k) * x1 (ix2 j k)) + x2 (ix1 j)) floor0
  rw [dot24, bcast_row_rows, bcast_vec_row, broadcastInDim_scalar_apply, constant_apply]
  refine congrArg (fun s => max (s + x2 (ix1 j)) floor0) (Finset.sum_congr rfl fun k _ => ?_)
  rw [transpose_ix2_apply]

/-- Hidden layer `n` of the reference — slab `n` of the weights sliced, reshaped and transposed, the contraction,
    row `n` of the biases sliced, reshaped and broadcast, the rectifier — is, on row `r`, hidden layer `n` of that
    row of the incoming activations. -/
theorem hid_row (h : FVec Ideal S8388608x4 .f32) (x3 : FVec Ideal S10x4x4 .f32) (x4 : FVec Ideal S10x4 .f32)
    (n : ℕ) (hn : n < 10)
    (s3 : S10x4x4.Slices ![n, 0, 0] S1x4x4) (s4 : S10x4.Slices ![n, 0] S1x4)
    (c1 : S1x4x4.ShapeCasts S4x4) (tr : S4x4.Transposes [1, 0] S4x4) (c2 : S1x4.ShapeCasts S4)
    (b1 : S4.BroadcastsInDim S1x4 (![1] : Fin 1 → Fin S1x4.rank))
    (b2 : S1x4.BroadcastsInDim S8388608x4 (![0, 1] : Fin 2 → Fin S8388608x4.rank))
    (b0 : S_.BroadcastsInDim S8388608x4 (![] : Fin 0 → Fin S8388608x4.rank)) (r : Fin 8388608) :
    rowOfR (maximumf (addf (Host.dotGeneral (φ₁ := .f32) (φ₂ := .f32) dot_S8388608x4_S4x4_S8388608x4_1_0_0_1_n_n none h
          (transpose S4x4 [1, 0] (shapeCast S4x4 (extractStridedSlice S1x4x4 ![n, 0, 0] x3 s3) c1) tr))
        (broadcastInDim S8388608x4 ![0, 1] b2 (broadcastInDim S1x4 ![1] b1 (shapeCast S4 (extractStridedSlice S1x4 ![n, 0] x4 s4) c2))))
      (broadcastInDim S8388608x4 ![] b0 (constant (F := Ideal) S_ .f32 0x00000000#32))) r
    = hidLayer x3 x4 ⟨n, hn⟩ (rowOfR h r) := by
  funext j
  show max (Host.dotGeneral (φ₁ := .f32) (φ₂ := .f32) dot_S8388608x4_S4x4_S8388608x4_1_0_0_1_n_n none h
        (transpose S4x4 [1, 0] (shapeCast S4x4 (extractStridedSlice S1x4x4 ![n, 0, 0] x3 s3) c1) tr) (ix2 r j)
      + broadcastInDim S8388608x4 ![0, 1] b2 (broadcastInDim S1x4 ![1] b1 (shapeCast S4 (extractStridedSlice S1x4 ![n, 0] x4 s4) c2)) (ix2 r j))
      (broadcastInDim S8388608x4 ![] b0 (constant (F := Ideal) S_ .f32 0x00000000#32) (ix2 r j))
    = max ((∑ k : Fin 4, h (ix2 r k) * x3 (ix3 (⟨n, hn⟩ : Fin 10) j k)) + x4 (ix2 (⟨n, hn⟩ : Fin 10) j)) floor0
  rw [dot44, bcast_row_rows, bcast_vec_row, shapeCast_1a_a_apply,
    slice2_axis0_apply n x4 s4 (0 : Fin 1) j (⟨n, hn⟩ : Fin 10) (by show n = n + 0; omega),
    broadcastInDim_scalar_apply, constant_apply]
  refine congrArg (fun s => max (s + x4 (ix2 (⟨n, hn⟩ : Fin 10) j)) floor0) (Finset.sum_congr rfl fun k _ => ?_)
  rw [transpose_ix2_apply, shapeCast_1ab_ab_apply, slice_slab x3 n hn]

/-- The reference's output layer — the contraction with the transposed [1, 4] weights, the one bias broadcast
    down the batch — is, at `(r, 0)`, the output layer of row `r`. -/
theorem out_row (h : FVec Ideal S8388608x4 .f32) (x5 : FVec Ideal S1x4 .f32) (x6 : FVec Ideal S1 .f32)
    (tr : S1x4.Transposes [1, 0] S4x1)
    (b3 : S1.BroadcastsInDim S1x1 (![1] : Fin 1 → Fin S1x1.rank))
    (b4 : S1x1.BroadcastsInDim S8388608x1 (![0, 1] : Fin 2 → Fin S8388608x1.rank)) (r : Fin 8388608) :
    addf (Host.dotGeneral (φ₁ := .f32) (φ₂ := .f32) dot_S8388608x4_S4x1_S8388608x1_1_0_0_1_n_n none h (transpose S4x1 [1, 0] x5 tr))
        (broadcastInDim S8388608x1 ![0, 1] b4 (broadcastInDim S1x1 ![1] b3 x6)) (ix2 r (0 : Fin 1))
      = outLayer x5 x6 (rowOfR h r) := by
  show Host.dotGeneral (φ₁ := .f32) (φ₂ := .f32) dot_S8388608x4_S4x1_S8388608x1_1_0_0_1_n_n none h (transpose S4x1 [1, 0] x5 tr) (ix2 r (0 : Fin 1))
      + broadcastInDim S8388608x1 ![0, 1] b4 (broadcastInDim S1x1 ![1] b3 x6) (ix2 r (0 : Fin 1))
    = (∑ k : Fin 4, h (ix2 r k) * x5 (ix2 (0 : Fin 1) k)) + x6 (ix1 (0 : Fin 1))
  rw [dot41, bcast_row_rows, bcast_vec_row]
  refine congrArg (· + x6 (ix1 (0 : Fin 1))) (Finset.sum_congr rfl fun k _ => ?_)
  rw [transpose_ix2_apply]

/-! ## The reference's result on one row -/

/-- THE REFERENCE'S RESULT at `(r, 0)`: the network on row `r` of the input array. The stages are the generated
    read-back module's: stage `10 n + 15` is hidden layer `n` of stage `10 n + 5`, stage 5 the input layer, stage 110
    the output layer of stage 105. -/
theorem result_row (x0 : FVec Ideal S8388608x2 .f32) (x1 : FVec Ideal S4x2 .f32) (x2 : FVec Ideal S4 .f32)
    (x3 : FVec Ideal S10x4x4 .f32) (x4 : FVec Ideal S10x4 .f32) (x5 : FVec Ideal S1x4 .f32) (x6 : FVec Ideal S1 .f32)
    (r : Fin 8388608) :
    val_main_v110 (F := Ideal) x0 x1 x2 x3 x4 x5 x6 (ix2 r (0 : Fin 1)) = rowMlp x1 x2 x3 x4 x5 x6 (fun k => x0 (ix2 r k)) := by
  refine (out_row (val_main_v105 (F := Ideal) x0 x1 x2 x3 x4) x5 x6 _ _ _ r).trans ?_
  unfold rowMlp hiddenStack
  refine congrArg (outLayer x5 x6) ?_
  refine (hid_row (val_main_v95 (F := Ideal) x0 x1 x2 x3 x4) x3 x4 9 (by decide) _ _ _ _ _ _ _ _ r).trans ?_
  refine congrArg (hidLayer x3 x4 9) ?_
  refine (hid_row (val_main_v85 (F := Ideal) x0 x1 x2 x3 x4) x3 x4 8 (by decide) _ _ _ _ _ _ _ _ r).trans ?_
  refine congrArg (hidLayer x3 x4 8) ?_
  refine (hid_row (val_main_v75 (F := Ideal) x0 x1 x2 x3 x4) x3 x4 7 (by decide) _ _ _ _ _ _ _ _ r).trans ?_
  refine congrArg (hidLayer x3 x4 7) ?_
  refine (hid_row (val_main_v65 (F := Ideal) x0 x1 x2 x3 x4) x3 x4 6 (by decide) _ _ _ _ _ _ _ _ r).trans ?_
  refine congrArg (hidLayer x3 x4 6) ?_
  refine (hid_row (val_main_v55 (F := Ideal) x0 x1 x2 x3 x4) x3 x4 5 (by decide) _ _ _ _ _ _ _ _ r).trans ?_
  refine congrArg (hidLayer x3 x4 5) ?_
  refine (hid_row (val_main_v45 (F := Ideal) x0 x1 x2 x3 x4) x3 x4 4 (by decide) _ _ _ _ _ _ _ _ r).trans ?_
  refine congrArg (hidLayer x3 x4 4) ?_
  refine (hid_row (val_main_v35 (F := Ideal) x0 x1 x2 x3 x4) x3 x4 3 (by decide) _ _ _ _ _ _ _ _ r).trans ?_
  refine congrArg (hidLayer x3 x4 3) ?_
  refine (hid_row (val_main_v25 (F := Ideal) x0 x1 x2 x3 x4) x3 x4 2 (by decide) _ _ _ _ _ _ _ _ r).trans ?_
  refine congrArg (hidLayer x3 x4 2) ?_
  refine (hid_row (val_main_v15 (F := Ideal) x0 x1 x2 x3 x4) x3 x4 1 (by decide) _ _ _ _ _ _ _ _ r).trans ?_
  refine congrArg (hidLayer x3 x4 1) ?_
  refine (hid_row (val_main_v5 (F := Ideal) x0 x1 x2) x3 x4 0 (by decide) _ _ _ _ _ _ _ _ r).trans ?_
  refine congrArg (hidLayer x3 x4 0) ?_
  exact in_row x0 x1 x2 _ _ _ _ r

end Cert.ReferenceIdeal.Row

end
-- ==== Proof.lean ====
/-
  The certificate of a twelve-layer perceptron kernel against its jnp reference: both compute, on every row of
  the batch, `rowMlp` (Proof/Spec.lean) of that row.

  The three frames: the two kernel programs' are their generated frame runs; the reference's is its generated run
  with the result dropped. The idealization rewrote nothing, so `preserves` is `True`. The algebraic claim: the
  idealized kernel's result array ends at `mlp` of its arguments (Proof/KernelValue.lean, over Proof/KernelRow.lean),
  the idealized reference's result is, entry by entry, `rowMlp` of the entry's row (Proof/RefRow.lean), that is the
  same `mlp` of ITS arguments, and the two programs' arguments agree. No finiteness of the inputs is used: the two
  sides are the same term of sums, products and maxima over the extended reals.
-/
import proofs.«106356_j25718264169060_2_alg».proof.Defs
import proofs.«106356_j25718264169060_2_alg».proof.Proof.Gen.Kernel
import proofs.«106356_j25718264169060_2_alg».proof.Proof.Gen.Kernel.Skeleton
import proofs.«106356_j25718264169060_2_alg».proof.Proof.Gen.Kernel.Launch
import proofs.«106356_j25718264169060_2_alg».proof.Proof.Gen.Kernel.Points
import proofs.«106356_j25718264169060_2_alg».proof.Proof.Gen.Kernel.Frame
import proofs.«106356_j25718264169060_2_alg».proof.Proof.Gen.KernelIdeal
import proofs.«106356_j25718264169060_2_alg».proof.Proof.Gen.KernelIdeal.Skeleton
import proofs.«106356_j25718264169060_2_alg».proof.Proof.Gen.KernelIdeal.Launch
import proofs.«106356_j25718264169060_2_alg».proof.Proof.Gen.KernelIdeal.Points
import proofs.«106356_j25718264169060_2_alg».proof.Proof.Gen.KernelIdeal.Frame
import proofs.«106356_j25718264169060_2_alg».proof.Proof.Gen.ReferenceIdeal
import proofs.«106356_j25718264169060_2_alg».proof.Proof.Gen.Pre_finite_inputs
import proofs.«106356_j25718264169060_2_alg».proof.Proof.Gen.KernelIdeal.Value
import proofs.«106356_j25718264169060_2_alg».proof.Proof.Gen.ReferenceIdeal.Run
import proofs.«106356_j25718264169060_2_alg».proof.Proof.Gen.ReferenceIdeal.Read
import proofs.«106356_j25718264169060_2_alg».proof.Proof.KernelValue
import proofs.«106356_j25718264169060_2_alg».proof.Proof.RefRow
import Idealize.ShloMosaic.Adequacy
import Idealize.ShloMosaic.Init

noncomputable section

namespace Cert.Proof

open Idealize.ShloMosaic Idealize.ShloMosaic.ValueIdx Idealize.SL.Sem Cert.Mlp

/-- The reference's result array is `mlp` of its argument arrays: entry `(r, 0)` is the network on row `r`. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v110 (F := Ideal) m c
      = mlp (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) := by
  rw [Cert.ReferenceIdeal.Read.val_main_v110_eq]
  funext i
  obtain ⟨r, q, rfl⟩ : ∃ (r : Fin 8388608) (q : Fin 1), i = ix2 r q := ⟨i 0, i 1, eq_ix2 i⟩
  have hq : q = 0 := Subsingleton.elim _ _
  subst hq
  exact Cert.ReferenceIdeal.Row.result_row _ _ _ _ _ _ _ r

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `mlp` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [reference_result, (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
